-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S64x2 .f32) (main_arg9 : FVec F S2 .f32) (main_v33 : IVec S_ 1) : IVec S_ 1 :=
  let main_v34 : FVec F S64x2 .f32 := Host.absf main_arg8
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S64x2 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x2 .f32) (main_arg9 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x64 : Shape := ⟨2, ![5000, 64]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 63
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S1x2, .f32⟩
  | .hbm, ⟨62, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S64x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x2.size a ≤ S64x2.size a
  hwx1_5 : ∀ i : grid1.Coords, EltTy.bits .f32 = 32 ∨ (Rect.block (s := S64x2) S64x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S100000x2.size a
  hwx1_7 : ∀ i : grid1.Coords, EltTy.bits .f32 = 32 ∨ (Rect.block (s := S100000x2) S5000x2.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x2 : Shape := ⟨2, ![100000, 2]⟩
abbrev S1x2 : Shape := ⟨2, ![1, 2]⟩

abbrev nBuf : Space → Nat
  | .hbm => 87
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x2, .f32⟩
  | .hbm, ⟨84, _⟩ => ⟨S1x2, .f32⟩
  | .hbm, ⟨85, _⟩ => ⟨S100000x2, .f32⟩
  | .hbm, ⟨86, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The idealized kernel's run, read at the last boundary.

  @main is four segments: host operations, the first launch, host operations, the second launch. Each segment takes
  the buffers that outlive the launches from one boundary's contents to the next; the last boundary's contents are
  the second launch's arrays as its write-backs leave them and everything else as the second stretch of host
  operations left it. Every weakly fair execution goes through the segments in order, so it terminates, nothing
  faulting, with every such buffer at the last boundary's contents. Read at the result array this is what the value
  claim needs; read at an argument array it is the launch contents again, since nothing writes an argument.
-/
import proofs.«156643_j86698209837070_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging cells' launch element. -/
abbrev launchElt := initOf (Pipeline.cells (nD := nD) (τ := τ) cfgs cellOf_inj) (Pipeline.launchToks cfgs cellOf_inj)

/-- The first thread state: every buffer that outlives the launches at its launch contents, the generator register,
    nothing owed. -/
abbrev first (c : Dev nD) : sProp 𝕄 :=
  iprop(StableHlo.held (c : Thread nD τ) (Pipeline.ucRefs τ sig) (W0 m ρ c) ∗ R c)

/-- What a final state reads: every buffer that outlives the launches at the last boundary's contents. -/
abbrev atLast (c : Dev nD) (s : MemSt nD τ sig (Elt F)) : Prop :=
  ∀ b ∈ Pipeline.ucRefs τ sig, s.mem (((c : Thread nD τ)).1, b) = W4 m ρ c b

/-- The launch element is the pipelines' own at every staging cell; no core needs a ghost resource beside it. -/
theorem deal : (ownU (launchElt) : sProp 𝕄)
    ⊢ |={Set.univ}=> iprop(BI.own (emb₁ (launchElt)) ∗ bigSep Finset.univ (fun _ : Dev nD => (BI.emp : sProp 𝕄))) := by
  iintro Hu
  imodintro
  isplitl [Hu]
  · iapply (show (ownU (launchElt) : sProp 𝕄) ⊢ BI.own (emb₁ (launchElt)) from .rfl)
    iexact Hu
  · rw [BI.bigSep_emp_const]
    iempintro

/-- What the launch hands every core makes the first thread state: its buffers at the launch memory ARE the held
    buffers at the launch contents; the register and the empty debt ride along. -/
theorem start : iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ |={Set.univ}=> bigSep Finset.univ (first m ρ) := by
  refine Pipeline.initEach L lv fun c => ?_
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hheld, -, Howes, -, Hreg, -⟩, -⟩
  imodintro
  isplitl [Hheld]
  · iexact Hheld
  isplitl [Hreg]
  · iexists _; iexact Hreg
  · iexists ∅; iexact Howes

/-- The last thread state against a final state: each held buffer is where the state has it. -/
theorem finish (c : Dev nD) (s' : Phys nD τ sig (Elt F)) :
    iprop(Tₙ m ρ c ∗ SI s') ⊢ |={Set.univ}=> iprop(⌜atLast m ρ c s'.mem⌝ ∗ SI s') := by
  iintro ⟨⟨Hheld, -⟩, HSI⟩
  unfold StableHlo.held
  imodintro
  iapply (pointsTo_read_all (Pipeline.ucRefs τ sig) (fun b => (((c : Thread nD τ)).1, b)) (W4 m ρ c) s')
  isplitl [Hheld] <;> iassumption

set_option backward.isDefEq.respectTransparency.types false in
/-- Every weakly fair execution of @main terminates, nothing faulting, with every buffer that outlives the launches
    at the last boundary's contents. -/
theorem run_last : θ_run defs (onTc (τ := τ) (main (F := F))) ⟨m, fun _ => 0, ρ⟩ (fun r => ∀ c : Dev nD, atLast m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := launchElt) (hu₀ := deal)
    (T₀ := first m ρ) (Tₙ := Tₙ m ρ)
    (hch := ⟨fun _ => .rfl, fun _ => .rfl, fun _ => .rfl, fun _ => .rfl, fun _ => .rfl⟩)
    (hinit := start m ρ) (QY := atLast m ρ) (hfin := finish m ρ) (hQ := fun s h => h)

/-- The result array ends at the second launch's output array as its write-backs leave it, and every argument array
    ends as launched. -/
theorem run_result : θ_run defs (onTc (τ := τ) (main (F := F))) ⟨m, fun _ => 0, ρ⟩ (fun r => ∀ c : Dev nD,
      r.2.mem ((c.tc : Thread nD τ).loc main_v42) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v42 (by decide))).trans (W4_arr m ρ c 7),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run_last m ρ)

end Cert.KernelIdeal.RunValue

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«156643_j86698209837070_1_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBlocks.lean ====
/-
  Rows of a block and rows of the whole array.

  The kernel works on blocks of consecutive rows; the reference works on the whole array. Every step of the
  dense stack acts on each row by itself: a product with a fixed matrix on the right, the addition of a fixed
  bias row, a function applied entry by entry, the sum of two arrays. So if a block holds the rows
  o, o + 1, … of a taller array before such a step, it holds the same rows of the taller result after it.
  This file states that relation (`RowsAt`) and proves that each kind of step keeps it.
-/
import Idealize.ShloMosaic.Lib.ValueIdx
import Idealize.ShloMosaic.PureOps.Ideal.Laws
import proofs.«156643_j86698209837070_1_alg».proof.Proof.LibMatProduct

noncomputable section

namespace Cert.Bridge

open Idealize.ShloMosaic Idealize.ShloMosaic.ValueIdx

/-- The array `hk` of `M` rows is the stretch of `hr` that starts at row `o`: row `p` of `hk` is row `o + p` of `hr`. -/
def RowsAt {α : Type} {M R N : ℕ} (o : ℕ) (hk : (⟨2, ![M, N]⟩ : Shape).Idx → α) (hr : (⟨2, ![R, N]⟩ : Shape).Idx → α) : Prop :=
  ∀ (p : Fin M) (r : Fin R) (j : Fin N), r.val = o + p.val → hk (ix2 p j) = hr (ix2 r j)

variable {α β γ δ : Type} {M R N : ℕ} {o : ℕ}

/-- A function applied entry by entry keeps the relation. -/
theorem RowsAt.map (f : α → β) {a : (⟨2, ![M, N]⟩ : Shape).Idx → α} {a' : (⟨2, ![R, N]⟩ : Shape).Idx → α}
    (h : RowsAt o a a') : RowsAt o (fun i => f (a i)) (fun i => f (a' i)) :=
  fun p r j e => congrArg f (h p r j e)

/-- A function of two arrays applied entry by entry keeps the relation. -/
theorem RowsAt.map₂ (f : α → β → γ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    (ha : RowsAt o a a') (hb : RowsAt o b b') : RowsAt o (fun i => f (a i) (b i)) (fun i => f (a' i) (b' i)) :=
  fun p r j e => by
    show f (a (ix2 p j)) (b (ix2 p j)) = f (a' (ix2 r j)) (b' (ix2 r j))
    rw [ha p r j e, hb p r j e]

/-- A function of three arrays applied entry by entry keeps the relation. -/
theorem RowsAt.map₃ (f : α → β → γ → δ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    {c : (⟨2, ![M, N]⟩ : Shape).Idx → γ} {c' : (⟨2, ![R, N]⟩ : Shape).Idx → γ}
    (ha : RowsAt o a a') (hb : RowsAt o b b') (hc : RowsAt o c c') :
    RowsAt o (fun i => f (a i) (b i) (c i)) (fun i => f (a' i) (b' i) (c' i)) :=
  fun p r j e => by
    show f (a (ix2 p j)) (b (ix2 p j)) (c (ix2 p j)) = f (a' (ix2 r j)) (b' (ix2 r j)) (c' (ix2 r j))
    rw [ha p r j e, hb p r j e, hc p r j e]

/-- Two arrays that hold one value everywhere are related. -/
theorem RowsAt.const (v : α) : RowsAt (M := M) (R := R) (N := N) o (fun _ => v) (fun _ => v) :=
  fun _ _ _ _ => rfl

/-- Two arrays whose entries depend on the column only, through one function, are related. -/
theorem RowsAt.ofCols (g : Fin N → α) {a : (⟨2, ![M, N]⟩ : Shape).Idx → α} {a' : (⟨2, ![R, N]⟩ : Shape).Idx → α}
    (ha : ∀ p j, a (ix2 p j) = g j) (ha' : ∀ r j, a' (ix2 r j) = g j) : RowsAt o a a' :=
  fun p r j _ => (ha p j).trans (ha' r j).symm

/-- The product with a fixed matrix on the right keeps the relation: row `p` of the product only reads row `p`
    of the left factor. -/
theorem RowsAt.prod {K : ℕ} {x : (⟨2, ![M, K]⟩ : Shape).Idx → EReal} {x' : (⟨2, ![R, K]⟩ : Shape).Idx → EReal}
    (h : RowsAt o x x') (w : (⟨2, ![K, N]⟩ : Shape).Idx → EReal) :
    RowsAt o (Cert.MatProduct.prod x w) (Cert.MatProduct.prod x' w) :=
  fun p r j e => by
    show (∑ k : Fin K, x (ix2 p k) * w (ix2 k j)) = ∑ k : Fin K, x' (ix2 r k) * w (ix2 k j)
    exact Finset.sum_congr rfl fun k _ => by rw [h p r k e]

/-- Related arrays are equal where the taller one is read at the related row. -/
theorem RowsAt.apply {a : (⟨2, ![M, N]⟩ : Shape).Idx → α} {a' : (⟨2, ![R, N]⟩ : Shape).Idx → α}
    (h : RowsAt o a a') (p : Fin M) (r : Fin R) (j : Fin N) (e : r.val = o + p.val) : a (ix2 p j) = a' (ix2 r j) :=
  h p r j e

end Cert.Bridge

end
-- ==== Proof.LibRowBias.lean ====
/-
  A bias row added to every row of an array, with or without a floor, as one whole-array function.

  `addRow x b` is the `[R, N]` array whose entry `(r, c)` is `x (r, c) + b (0, c)`, on the extended reals, for a one-row
  array `b` of shape `[1, N]`; `addRowMax x b z` is the same floored at `z`, entry by entry. A vector unit that spreads
  the row down the rows, adds, and takes the maximum with a splat computes exactly these, for any extents; and both
  functions act on each row by itself, so they keep the relation "a block is a stretch of consecutive rows of a
  taller array".
-/
import Idealize.ShloMosaic.Lib.ValueIdx
import Idealize.ShloMosaic.Lib.Pipeline.Value
import Idealize.ShloMosaic.PureOps.Ideal.Laws
import proofs.«156643_j86698209837070_1_alg».proof.Proof.LibMatProduct

noncomputable section

namespace Cert.RowBias

open Idealize.ShloMosaic Idealize.ShloMosaic.ValueIdx
open Cert.MatProduct (rowOf colOf)

/-- Every row of `x` plus the one row of `b`, entry by entry. -/
def addRow {R N : ℕ} (x : (⟨2, ![R, N]⟩ : Shape).Idx → EReal) (b : (⟨2, ![1, N]⟩ : Shape).Idx → EReal) :
    (⟨2, ![R, N]⟩ : Shape).Idx → EReal :=
  fun y => x y + b (ix2 0 (colOf y))

/-- Every row of `x` plus the one row of `b`, floored at `z`, entry by entry. -/
def addRowMax {R N : ℕ} (x : (⟨2, ![R, N]⟩ : Shape).Idx → EReal) (b : (⟨2, ![1, N]⟩ : Shape).Idx → EReal) (z : EReal) :
    (⟨2, ![R, N]⟩ : Shape).Idx → EReal :=
  fun y => max (x y + b (ix2 0 (colOf y))) z

/-- A one-row array spread down `R` rows reads, at `(r, c)`, the row's entry `c`. -/
theorem spreadRow_apply {R N : ℕ} (b : (⟨2, ![1, N]⟩ : Shape).Idx → EReal)
    (h : (⟨2, ![1, N]⟩ : Shape).Broadcasts ⟨2, ![R, N]⟩) (y : (⟨2, ![R, N]⟩ : Shape).Idx) :
    broadcastTo ⟨2, ![R, N]⟩ b h y = b (ix2 0 (colOf y)) := by
  refine broadcastTo_apply b h y (ix2 0 (colOf y)) fun a => ?_
  match a with
  | ⟨0, _⟩ => exact (if_pos rfl).symm
  | ⟨1, _⟩ =>
    show (y 1).val = if N = 1 then 0 else (y 1).val
    have hy : (y 1).val < N := (y 1).isLt
    split_ifs with hN
    · omega
    · rfl

/-- The vector unit's `x + spread b`, through the identity casts the lowering leaves around both operands. -/
theorem vec_addRow {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) :
    addf (shapeCast ⟨2, ![R, N]⟩ x h0) (broadcastTo ⟨2, ![R, N]⟩ (shapeCast ⟨2, ![1, N]⟩ (shapeCast ⟨2, ![1, N]⟩ b h1) h2) hb)
      = addRow x b := by
  rw [shapeCast_self, shapeCast_self, shapeCast_self]
  funext y
  rw [addf_apply, spreadRow_apply]
  rfl

/-- The same floored at a splat of `z`. -/
theorem vec_addRowMax {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) (z : Ideal .f32) :
    maximumf (addf (shapeCast ⟨2, ![R, N]⟩ x h0) (broadcastTo ⟨2, ![R, N]⟩ (shapeCast ⟨2, ![1, N]⟩ (shapeCast ⟨2, ![1, N]⟩ b h1) h2) hb))
        (broadcast ⟨2, ![R, N]⟩ z)
      = addRowMax x b z := by
  rw [vec_addRow]
  funext y
  rw [maximumf_apply, broadcast_apply]
  rfl

/-- Two products agree at two entries when the rows and the columns those entries read agree. -/
theorem prod_entry_congr {M M' K N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal}
    (y : (⟨2, ![M, N]⟩ : Shape).Idx) (y' : (⟨2, ![M', N']⟩ : Shape).Idx)
    (hx : ∀ k : Fin K, x (ix2 (rowOf y) k) = x' (ix2 (rowOf y') k))
    (hw : ∀ k : Fin K, w (ix2 k (colOf y)) = w' (ix2 k (colOf y'))) :
    Cert.MatProduct.prod x w y = Cert.MatProduct.prod x' w' y' :=
  Finset.sum_congr rfl fun k _ => by rw [hx k, hw k]

/-- `addRow` agrees at two entries when the entries and the bias entries they read agree. -/
theorem addRow_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal}
    (y : (⟨2, ![R, N]⟩ : Shape).Idx) (y' : (⟨2, ![R', N']⟩ : Shape).Idx)
    (hx : x y = x' y') (hb : b (ix2 0 (colOf y)) = b' (ix2 0 (colOf y'))) :
    addRow x b y = addRow x' b' y' := by
  show x y + b (ix2 0 (colOf y)) = x' y' + b' (ix2 0 (colOf y'))
  rw [hx, hb]

/-- `addRowMax` agrees at two entries when the entries and the bias entries they read agree. -/
theorem addRowMax_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal} (z : EReal)
    (y : (⟨2, ![R, N]⟩ : Shape).Idx) (y' : (⟨2, ![R', N']⟩ : Shape).Idx)
    (hx : x y = x' y') (hb : b (ix2 0 (colOf y)) = b' (ix2 0 (colOf y'))) :
    addRowMax x b z y = addRowMax x' b' z y' := by
  show max (x y + b (ix2 0 (colOf y))) z = max (x' y' + b' (ix2 0 (colOf y'))) z
  rw [hx, hb]

/-- A length-`N` vector regarded as one row reads, at `(0, c)`, the vector's entry `c`. -/
theorem vecRow_apply {α : Type} {N : ℕ} (b : (⟨1, ![N]⟩ : Shape).Idx → α)
    (h : (⟨1, ![N]⟩ : Shape).ShapeCasts ⟨2, ![1, N]⟩) (c : Fin N) :
    shapeCast ⟨2, ![1, N]⟩ b h (ix2 (0 : Fin 1) c) = b (ix1 c) := by
  refine shapeCast_apply b h (ix2 (0 : Fin 1) c) (ix1 c) ?_
  rw [Shape.rowMajor_val_one, Shape.rowMajor_val_two]
  show c.val = 0 * N + c.val
  omega

end Cert.RowBias

end
-- ==== Proof.LibRecipClip.lean ====
/-
  A mean taken by a reciprocal of a clipped count, on the extended reals.

  For a count d clipped below at one, c = max(1, d), the product a * (1 / c) and the quotient a / c agree for EVERY
  extended real a (the infinities included) and every extended real d: c >= 1 is not zero, and off zero the quotient
  is by definition the product with the inverse. The one is the f32 word 0x3F800000 read as an extended real. No
  finiteness of a or of d is needed.
-/
import Idealize.ShloMosaic.PureOps.Ideal
import Idealize.ShloMosaic.PureOps.Ideal.Laws
import Idealize.ShloMosaic.Lib.IdealHost

noncomputable section

namespace Cert.LibRecipClip

open Idealize.ShloMosaic

/-- A value clipped below at one is not zero. -/
theorem clip_ne_zero (d : EReal) : max (Ideal.ofBits .f32 0x3F800000#32) d ≠ 0 := by
  rw [Ideal.ofBits_one_f32]
  exact ne_of_gt (lt_of_lt_of_le zero_lt_one (le_max_left _ _))

/-- The reciprocal of a value clipped below at one is its inverse. -/
theorem recip_clip (d : EReal) :
    Ideal.div (Ideal.ofBits .f32 0x3F800000#32) (max (Ideal.ofBits .f32 0x3F800000#32) d)
      = (max (Ideal.ofBits .f32 0x3F800000#32) d)⁻¹ := by
  unfold Ideal.div
  rw [if_neg (clip_ne_zero d), Ideal.ofBits_one_f32, one_mul]

/-- Multiplying by the reciprocal of a clipped value is dividing by it, for every extended real numerator. -/
theorem mul_recip_clip (a d : EReal) :
    a * Ideal.div (Ideal.ofBits .f32 0x3F800000#32) (max (Ideal.ofBits .f32 0x3F800000#32) d)
      = Ideal.div a (max (Ideal.ofBits .f32 0x3F800000#32) d) := by
  rw [recip_clip]
  unfold Ideal.div
  rw [if_neg (clip_ne_zero d)]

end Cert.LibRecipClip

end
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibMeanLayerStages.lean ====
/-
  The dense steps of a two-layer mean-aggregating graph network, as whole-array functions on the extended reals.

  A layer takes the aggregated neighbour features `a` and the node's own features `y` (both one row per node) and
  returns `(a · wl + y · wr) + b`, the bias `b` added to every row; the first layer is floored at a value `z` entry by
  entry. The head is `h · wc + bc`. The aggregation is a mean: the summed messages of a node divided by the node's
  count of incoming edges, the count clipped below at one. Each of these acts on every row by itself, so a block of
  consecutive rows of the inputs gives the same block of rows of the result; that is what lets a kernel compute them
  block of rows by block of rows.

  Two spellings of the same numbers are reconciled here, for any extents and with no finiteness asked of anything:
  the three addends of a layer taken in the order `(p + q) + b` or `(p + b) + q` (addition of extended reals is
  commutative and associative), and the mean taken as a product with the reciprocal of the clipped count or as a
  quotient by it (a count clipped at one is not zero).
-/
import Idealize.ShloMosaic.Lib.ValueIdx
import Idealize.ShloMosaic.Lib.Pipeline.Value
import Idealize.ShloMosaic.Lib.IdealHost
import Idealize.ShloMosaic.PureOps.Ideal.Laws
import proofs.«156643_j86698209837070_1_alg».proof.Proof.LibRowBlocks
import proofs.«156643_j86698209837070_1_alg».proof.Proof.LibRowBias
import proofs.«156643_j86698209837070_1_alg».proof.Proof.LibRecipClip
import proofs.«156643_j86698209837070_1_alg».proof.Proof.LibHostColumn
import proofs.«156643_j86698209837070_1_alg».proof.Proof.LibHostRow

noncomputable section

namespace Cert.GraphNet

open Idealize.ShloMosaic Idealize.ShloMosaic.ValueIdx
open Cert.MatProduct Cert.RowBias Cert.Bridge

/-- An array of extended reals with `R` rows and `N` columns. -/
abbrev Mat (R N : ℕ) : Type := (⟨2, ![R, N]⟩ : Shape).Idx → EReal
/-- A vector of `N` extended reals. -/
abbrev Vct (N : ℕ) : Type := (⟨1, ![N]⟩ : Shape).Idx → EReal

variable {M R K N C : ℕ} {o : ℕ}

/-! ## The stages -/

/-- A vector regarded as an array of one row. -/
def asRow (b : Vct N) : Mat 1 N := fun y => b (ix1 (colOf y))

/-- Every row of `s` divided by that row's entry of `d`. -/
def meanRows (s : Mat R K) (d : Vct R) : Mat R K := fun y => Ideal.div (s y) (d (ix1 (rowOf y)))

/-- One layer: `(a · wl + y · wr) + b`. -/
def layer (a y : Mat R K) (wl wr : Mat K N) (b : Mat 1 N) : Mat R N :=
  addRow (fun i => prod a wl i + prod y wr i) b

/-- One layer floored at `z`, entry by entry. -/
def layerFloor (a y : Mat R K) (wl wr : Mat K N) (b : Mat 1 N) (z : EReal) : Mat R N :=
  addRowMax (fun i => prod a wl i + prod y wr i) b z

/-- The head: `h · wc + bc`. -/
def head (h : Mat R K) (wc : Mat K C) (bc : Mat 1 C) : Mat R C := addRow (prod h wc) bc

/-- The whole network, given how messages are summed per node (`msg`) and the clipped counts (`d`): a floored layer
    on the mean of the inputs' messages, a layer on the mean of the hidden features' messages, the head. -/
def net (msg : Mat R K → Mat R K) (d : Vct R) (z : EReal) (x : Mat R K) (w1l w1r w2l w2r : Mat K K) (b1 b2 : Vct K)
    (wc : Mat K C) (bc : Vct C) : Mat R C :=
  head (layer (meanRows (msg (layerFloor (meanRows (msg x) d) x w1l w1r (asRow b1) z)) d)
      (layerFloor (meanRows (msg x) d) x w1l w1r (asRow b1) z) w2l w2r (asRow b2)) wc (asRow bc)

/-! ## Each stage acts on every row by itself -/

/-- Adding a bias row keeps "a block is a stretch of consecutive rows". -/
theorem rows_addRow {x : Mat M N} {x' : Mat R N} (h : RowsAt o x x') (b : Mat 1 N) : RowsAt o (addRow x b) (addRow x' b) :=
  fun p r j e => by
    show x (ix2 p j) + b (ix2 0 (colOf (ix2 p j))) = x' (ix2 r j) + b (ix2 0 (colOf (ix2 r j)))
    rw [h p r j e]; rfl

/-- So does adding it and flooring. -/
theorem rows_addRowMax {x : Mat M N} {x' : Mat R N} (h : RowsAt o x x') (b : Mat 1 N) (z : EReal) :
    RowsAt o (addRowMax x b z) (addRowMax x' b z) :=
  fun p r j e => by
    show max (x (ix2 p j) + b (ix2 0 (colOf (ix2 p j)))) z = max (x' (ix2 r j) + b (ix2 0 (colOf (ix2 r j)))) z
    rw [h p r j e]; rfl

theorem rows_layer {a y : Mat M K} {a' y' : Mat R K} (ha : RowsAt o a a') (hy : RowsAt o y y') (wl wr : Mat K N) (b : Mat 1 N) :
    RowsAt o (layer a y wl wr b) (layer a' y' wl wr b) :=
  rows_addRow (RowsAt.map₂ (fun u v : EReal => u + v) (ha.prod wl) (hy.prod wr)) b

theorem rows_layerFloor {a y : Mat M K} {a' y' : Mat R K} (ha : RowsAt o a a') (hy : RowsAt o y y') (wl wr : Mat K N)
    (b : Mat 1 N) (z : EReal) : RowsAt o (layerFloor a y wl wr b z) (layerFloor a' y' wl wr b z) :=
  rows_addRowMax (RowsAt.map₂ (fun u v : EReal => u + v) (ha.prod wl) (hy.prod wr)) b z

theorem rows_head {h : Mat M K} {h' : Mat R K} (hh : RowsAt o h h') (wc : Mat K C) (bc : Mat 1 C) :
    RowsAt o (head h wc bc) (head h' wc bc) :=
  rows_addRow (hh.prod wc) bc

/-! ## The vector unit's spelling -/

/-- The matrix unit on operands narrowed to bf16, accumulating into zero, is the product: a change of float format
    is the identity on extended reals. -/
theorem mxu_eq_prod (x : FVec Ideal ⟨2, ![M, K]⟩ .f32) (w : FVec Ideal ⟨2, ![K, N]⟩ .f32)
    (hx : FTy.bf16.bits < FTy.f32.bits) (hw : FTy.bf16.bits < FTy.f32.bits) :
    FloatOps.matmul (DotDims.plain M K N) none (truncf .bf16 x hx) (truncf .bf16 w hw)
        (constant (F := Ideal) ⟨2, ![M, N]⟩ .f32 0x00000000#32) = prod x w :=
  matmul_zero_eq_prod none (truncf .bf16 x hx) (truncf .bf16 w hw)

/-- The vector unit's layer: two products on the matrix unit, their sum, the bias row spread down the rows. -/
theorem vec_layer (p q : FVec Ideal ⟨2, ![M, N]⟩ .f32) (b : FVec Ideal ⟨2, ![1, N]⟩ .f32)
    (h1 : (⟨2, ![1, N]⟩ : Shape).ShapeCasts ⟨2, ![1, N]⟩) (hb : (⟨2, ![1, N]⟩ : Shape).Broadcasts ⟨2, ![M, N]⟩) :
    addf (addf p q) (broadcastTo ⟨2, ![M, N]⟩ (shapeCast ⟨2, ![1, N]⟩ b h1) hb) = addRow (fun i => p i + q i) b := by
  rw [shapeCast_self]
  funext y
  rw [addf_apply, addf_apply, spreadRow_apply]
  rfl

/-- The same floored at a splat. -/
theorem vec_layerFloor (p q : FVec Ideal ⟨2, ![M, N]⟩ .f32) (b : FVec Ideal ⟨2, ![1, N]⟩ .f32)
    (h1 : (⟨2, ![1, N]⟩ : Shape).ShapeCasts ⟨2, ![1, N]⟩) (hb : (⟨2, ![1, N]⟩ : Shape).Broadcasts ⟨2, ![M, N]⟩) (z : Ideal .f32) :
    maximumf (addf (addf p q) (broadcastTo ⟨2, ![M, N]⟩ (shapeCast ⟨2, ![1, N]⟩ b h1) hb)) (broadcast ⟨2, ![M, N]⟩ z)
      = addRowMax (fun i => p i + q i) b z := by
  rw [vec_layer]
  funext y
  rw [maximumf_apply, broadcast_apply]
  rfl

/-- The vector unit's `x + spread b` is `addRow`. -/
theorem vec_rows (p : FVec Ideal ⟨2, ![M, N]⟩ .f32) (b : FVec Ideal ⟨2, ![1, N]⟩ .f32)
    (hb : (⟨2, ![1, N]⟩ : Shape).Broadcasts ⟨2, ![M, N]⟩) : addf p (broadcastTo ⟨2, ![M, N]⟩ b hb) = addRow p b := by
  funext y
  rw [addf_apply, spreadRow_apply]
  rfl

/-- The vector unit's layer followed by its head: three matrix-unit products of operands narrowed to bf16, each into
    a zero accumulator, and two bias rows spread down the rows. -/
theorem vec_head_layer (x0 x1 : FVec Ideal ⟨2, ![M, K]⟩ .f32) (wl wr : FVec Ideal ⟨2, ![K, N]⟩ .f32)
    (b : FVec Ideal ⟨2, ![1, N]⟩ .f32) (wc : FVec Ideal ⟨2, ![N, C]⟩ .f32) (bc : FVec Ideal ⟨2, ![1, C]⟩ .f32)
    (hlt : FTy.bf16.bits < FTy.f32.bits) (hb : (⟨2, ![1, N]⟩ : Shape).Broadcasts ⟨2, ![M, N]⟩)
    (hbc : (⟨2, ![1, C]⟩ : Shape).Broadcasts ⟨2, ![M, C]⟩) :
    addf (FloatOps.matmul (DotDims.plain M N C) none
          (truncf .bf16
            (addf (addf
                (FloatOps.matmul (DotDims.plain M K N) none (truncf .bf16 x0 hlt) (truncf .bf16 wl hlt)
                  (constant (F := Ideal) ⟨2, ![M, N]⟩ .f32 0x00000000#32))
                (FloatOps.matmul (DotDims.plain M K N) none (truncf .bf16 x1 hlt) (truncf .bf16 wr hlt)
                  (constant (F := Ideal) ⟨2, ![M, N]⟩ .f32 0x00000000#32)))
              (broadcastTo ⟨2, ![M, N]⟩ b hb)) hlt)
          (truncf .bf16 wc hlt) (constant (F := Ideal) ⟨2, ![M, C]⟩ .f32 0x00000000#32))
        (broadcastTo ⟨2, ![M, C]⟩ bc hbc)
      = head (layer x0 x1 wl wr b) wc bc := by
  rw [mxu_eq_prod, mxu_eq_prod, mxu_eq_prod, vec_rows, vec_rows]
  rfl

end Cert.GraphNet

end
-- ==== Proof.Blocks0.lean ====
/-
  The first kernel launch, read as one whole-array function.

  The launch walks the 100000 node rows in 20 blocks of 5000. At block `t` it is handed rows 5000·t … 5000·t + 4999 of
  the aggregated features and of the node features, and the two weight matrices and the bias row whole; it writes rows
  5000·t … 5000·t + 4999 of the result. What it writes is the floored layer of its blocks, and the floored layer acts on
  every row by itself, so block `t` of the result is block `t` of the floored layer of the whole arrays. The 20 blocks
  tile the result, so after the launch the result array IS the floored layer of the arrays the launch found.
-/
import Idealize.ShloMosaic.Lib.Pipeline.Value
import proofs.«156643_j86698209837070_1_alg».proof.Proof.Gen.KernelIdeal.Frame
import proofs.«156643_j86698209837070_1_alg».proof.Proof.LibMeanLayerStages

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Cert.GraphNet Cert.Bridge Cert.MatProduct Cert.RowBias

variable (V : (c : Dev nD) → (b : Ref sig .tc) → Buf (Elt Ideal) ((c : Thread nD τ).loc b))

theorem hz : (![0, 0] : Fin 2 → Nat) = fun _ => 0 := funext fun a => by fin_cases a <;> rfl

/-- The zero the first layer is floored at, as the body spells it. -/
abbrev zeroWord : EReal := Ideal.ofBits .f32 0x00000000#32

/-! ## The body's arithmetic -/

/-- The body's one stored value is the floored layer of the five blocks it loads: the two matrix-unit products of
    operands narrowed to bf16 are the products, the bias row is spread down the rows, the floor is a splat. -/
theorem pay0_eq (x0 x1 : Vec Ideal S5000x64 .f32) (wl wr : Vec Ideal S64x64 .f32) (b : Vec Ideal S1x64 .f32) :
    k0_pay1 (F := Ideal) x0 x1 wl wr b = layerFloor x0 x1 wl wr b zeroWord := by
  have hp : matmul dot_S5000x64_S64x64_S5000x64_1_0_0_1_n_n none
      (truncf .bf16 (shapeCast S5000x64 x0 shapeCasts_S5000x64_S5000x64) bitsLt_bf16_f32) (truncf .bf16 wl bitsLt_bf16_f32)
      (constant (F := Ideal) S5000x64 .f32 0x00000000#32) = prod x0 wl := by
    rw [shapeCast_self]; exact mxu_eq_prod x0 wl _ _
  have hq : matmul dot_S5000x64_S64x64_S5000x64_1_0_0_1_n_n none
      (truncf .bf16 x1 bitsLt_bf16_f32) (truncf .bf16 wr bitsLt_bf16_f32)
      (constant (F := Ideal) S5000x64 .f32 0x00000000#32) = prod x1 wr := mxu_eq_prod x1 wr _ _
  unfold k0_pay1
  dsimp only
  rw [hp, hq]
  exact vec_layerFloor (prod x0 wl) (prod x1 wr) b _ _ _

/-! ## The blocks -/

/-- The printed index maps over the grid: the three row windows are at block row `t`, the three resident windows
    at the one block there is. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt0 (t : Fin cfg0.N) : t.val < 20 := lt_of_lt_of_eq t.isLt N_0

/-- Block `t` of the aggregated features is their rows from 5000·t on. -/
theorem rows0_0 (c : Dev nD) (t : Fin cfg0.N) : RowsAt (5000 * t.val) (iblk0 V c 0 t) (V c main_v24) := fun p r j e => by
  obtain ⟨e0, e1, -⟩ := idx_facts0 t
  show V c main_v24 (((cfg0.win 0).blk t).view.emb (ix2 p j)) = V c main_v24 (ix2 r j)
  refine congrArg _ ?_
  funext a; apply Fin.ext
  match a with
  | ⟨0, _⟩ => show win0_0.index t (0 : Fin 2) * 5000 + 1 * p.val = r.val; omega
  | ⟨1, _⟩ => show win0_0.index t (1 : Fin 2) * 64 + 1 * j.val = j.val; omega

/-- Block `t` of the node features is their rows from 5000·t on. -/
theorem rows0_1 (c : Dev nD) (t : Fin cfg0.N) : RowsAt (5000 * t.val) (iblk0 V c 1 t) (V c main_arg0) := fun p r j e => by
  obtain ⟨-, -, e0, e1, -⟩ := idx_facts0 t
  show V c main_arg0 (((cfg0.win 1).blk t).view.emb (ix2 p j)) = V c main_arg0 (ix2 r j)
  refine congrArg _ ?_
  funext a; apply Fin.ext
  match a with
  | ⟨0, _⟩ => show win0_1.index t (0 : Fin 2) * 5000 + 1 * p.val = r.val; omega
  | ⟨1, _⟩ => show win0_1.index t (1 : Fin 2) * 64 + 1 * j.val = j.val; omega

/-- The neighbour weights are handed over whole at every point. -/
theorem whole0_2 (c : Dev nD) (t : Fin cfg0.N) : iblk0 V c 2 t = V c main_arg2 := by
  obtain ⟨-, -, -, -, e0, e1, -⟩ := idx_facts0 t
  funext y
  show V c main_arg2 (((cfg0.win 2).blk t).view.emb y) = V c main_arg2 y
  refine congrArg _ ?_
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The bias row is handed over whole at every point. -/
theorem whole0_3 (c : Dev nD) (t : Fin cfg0.N) : iblk0 V c 3 t = V c main_v25 := by
  obtain ⟨-, -, -, -, -, -, e0, e1, -⟩ := idx_facts0 t
  funext y
  show V c main_v25 (((cfg0.win 3).blk t).view.emb y) = V c main_v25 y
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The root weights are handed over whole at every point. -/
theorem whole0_4 (c : Dev nD) (t : Fin cfg0.N) : iblk0 V c 4 t = V c main_arg4 := by
  obtain ⟨-, -, -, -, -, -, -, -, e0, e1, -⟩ := idx_facts0 t
  funext y
  show V c main_arg4 (((cfg0.win 4).blk t).view.emb y) = V c main_arg4 y
  refine congrArg _ ?_
  funext a; apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- The first launch's result as one function of the arrays it finds. -/
abbrev hidden (c : Dev nD) : Mat 100000 64 :=
  layerFloor (V c main_v24) (V c main_arg0) (V c main_arg2) (V c main_arg4) (V c main_v25) zeroWord

/-- What point `t` writes back is block `t` of the floored layer of the whole arrays. -/
theorem flushed0 (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  rw [pay0_eq, whole0_2, whole0_3, whole0_4]
  have hr := rows_layerFloor (rows0_0 V c t) (rows0_1 V c t) (V c main_arg2) (V c main_arg4) (V c main_v25) zeroWord
  have ht := point_lt0 t
  obtain ⟨-, -, -, -, -, -, -, -, -, -, e0, e1⟩ := idx_facts0 t
  funext y
  obtain ⟨p, q, rfl⟩ : ∃ (p : Fin 5000) (q : Fin 64), y = ix2 p q := ⟨_, _, eq_ix2 y⟩
  have hp := p.isLt
  refine (hr p ⟨5000 * t.val + p.val, by omega⟩ q rfl).trans ?_
  show hidden V c _ = hidden V c (((cfg0.win 5).blk t).view.emb (ix2 p q))
  refine congrArg _ ?_
  funext a; apply Fin.ext
  match a with
  | ⟨0, _⟩ => show 5000 * t.val + p.val = win0_5.index t (0 : Fin 2) * 5000 + 1 * p.val; omega
  | ⟨1, _⟩ => show q.val = win0_5.index t (1 : Fin 2) * 64 + 1 * q.val; omega

/-- An index of the result is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26).slice (win0_5.rect t)).set ↔ _
  rw [View.set_slice_whole, Rect.mem_set_unit]
  exact Iff.rfl

/-- Every index of the result is in the block of the point numbered by its row divided by 5000. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  refine ⟨⟨(i 0).val / 5000, lt_of_lt_of_eq (by omega) N_0.symm⟩, flush0_5 _, ?_⟩
  obtain ⟨-, -, -, -, -, -, -, -, -, -, e0, e1⟩ := idx_facts0 ⟨(i 0).val / 5000, lt_of_lt_of_eq (by omega) N_0.symm⟩
  rw [mem_blk0]
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e1]; omega

/-- After the first launch the result array is the floored layer of the arrays the launch found. -/
theorem final0 (c : Dev nD) : (dat0 V c).arrAt 5 cfg0.N = hidden V c :=
  (dat0 V c).arrAt_eq_of_cover 5 (hidden V c) (fun t _ => flushed0 V c t) cover0

end Cert.KernelIdeal.Blocks

end
-- ==== Proof.Blocks1.lean ====
/-
  The second kernel launch, read as one whole-array function.

  It walks the 100000 node rows in 20 blocks of 5000 like the first. At block `t` it is handed rows 5000·t … 5000·t + 4999
  of the aggregated hidden features and of the hidden features, and two weight matrices, a bias row, the classifier's
  weights and its bias row whole; it writes rows 5000·t … 5000·t + 4999 of the two-column result: the head of the layer of
  its blocks. Layer and head act on every row by itself, so block `t` of the result is block `t` of the head of the layer
  of the whole arrays, and the 20 blocks tile the result.
-/
import Idealize.ShloMosaic.Lib.Pipeline.Value
import proofs.«156643_j86698209837070_1_alg».proof.Proof.Gen.KernelIdeal.Frame
import proofs.«156643_j86698209837070_1_alg».proof.Proof.LibMeanLayerStages

set_option maxRecDepth 16384

noncomputable section

namespace Cert.KernelIdeal.Blocks1

open Cert.KernelIdeal Cert.KernelIdeal.Gen Idealize.ShloMosaic Idealize.ShloMosaic.TcCoe Idealize.ShloMosaic.ValueIdx
open Idealize.SL.Sem
open Cert.GraphNet Cert.Bridge Cert.MatProduct Cert.RowBias

variable (V : (c : Dev nD) → (b : Ref sig .tc) → Buf (Elt Ideal) ((c : Thread nD τ).loc b))

theorem hz : (![0, 0] : Fin 2 → Nat) = fun _ => 0 := funext fun a => by fin_cases a <;> rfl

/-! ## The body's arithmetic -/

/-- The body's one stored value is the head of the layer of the seven blocks it loads: three matrix-unit products of
    operands narrowed to bf16, two bias rows spread down the rows. -/
theorem pay1_eq (x0 x1 : Vec Ideal S5000x64 .f32) (wl wr : Vec Ideal S64x64 .f32) (b : Vec Ideal S1x64 .f32)
    (wc : Vec Ideal S64x2 .f32) (bc : Vec Ideal S1x2 .f32) :
    k1_pay1 (F := Ideal) x0 x1 wl wr b wc bc = head (layer x0 x1 wl wr b) wc bc := by
  unfold k1_pay1
  dsimp only
  simp only [shapeCast_self]
  exact vec_head_layer x0 x1 wl wr b wc bc _ _ _

/-! ## The blocks -/

/-- The printed index maps over the grid: the three row windows are at block row `t`, the five resident windows at
    the one block there is. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem point_lt1 (t : Fin cfg1.N) : t.val < 20 := lt_of_lt_of_eq t.isLt N_1

/-- Block `t` of the aggregated hidden features is their rows from 5000·t on. -/
theorem rows1_0 (c : Dev nD) (t : Fin cfg1.N) : RowsAt (5000 * t.val) (iblk1 V c 0 t) (V c main_v39) := fun p r j e => by
  have e' := idx_facts1 t
  show V c main_v39 (((cfg1.win 0).blk t).view.emb (ix2 p j)) = V c main_v39 (ix2 r j)
  refine congrArg _ ?_
  funext a; apply Fin.ext
  match a with
  | ⟨0, _⟩ => show win1_0.index t (0 : Fin 2) * 5000 + 1 * p.val = r.val; omega
  | ⟨1, _⟩ => show win1_0.index t (1 : Fin 2) * 64 + 1 * j.val = j.val; omega

/-- Block `t` of the hidden features is their rows from 5000·t on. -/
theorem rows1_1 (c : Dev nD) (t : Fin cfg1.N) : RowsAt (5000 * t.val) (iblk1 V c 1 t) (V c main_v26) := fun p r j e => by
  have e' := idx_facts1 t
  show V c main_v26 (((cfg1.win 1).blk t).view.emb (ix2 p j)) = V c main_v26 (ix2 r j)
  refine congrArg _ ?_
  funext a; apply Fin.ext
  match a with
  | ⟨0, _⟩ => show win1_1.index t (0 : Fin 2) * 5000 + 1 * p.val = r.val; omega
  | ⟨1, _⟩ => show win1_1.index t (1 : Fin 2) * 64 + 1 * j.val = j.val; omega

/-- The neighbour weights are handed over whole at every point. -/
theorem whole1_2 (c : Dev nD) (t : Fin cfg1.N) : iblk1 V c 2 t = V c main_arg5 := by
  have e := idx_facts1 t
  funext y
  show V c main_arg5 (((cfg1.win 2).blk t).view.emb y) = V c main_arg5 y
  refine congrArg _ ?_
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The bias row is handed over whole at every point. -/
theorem whole1_3 (c : Dev nD) (t : Fin cfg1.N) : iblk1 V c 3 t = V c main_v40 := by
  have e := idx_facts1 t
  funext y
  show V c main_v40 (((cfg1.win 3).blk t).view.emb y) = V c main_v40 y
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The root weights are handed over whole at every point. -/
theorem whole1_4 (c : Dev nD) (t : Fin cfg1.N) : iblk1 V c 4 t = V c main_arg7 := by
  have e := idx_facts1 t
  funext y
  show V c main_arg7 (((cfg1.win 4).blk t).view.emb y) = V c main_arg7 y
  refine congrArg _ ?_
  funext a; apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- The classifier's weights are handed over whole at every point. -/
theorem whole1_5 (c : Dev nD) (t : Fin cfg1.N) : iblk1 V c 5 t = V c main_arg8 := by
  have e := idx_facts1 t
  funext y
  show V c main_arg8 (((cfg1.win 5).blk t).view.emb y) = V c main_arg8 y
  refine congrArg _ ?_
  funext a; apply Fin.ext
  match a with
  | ⟨0, _⟩ => show win1_5.index t (0 : Fin 2) * 64 + 1 * (y 0).val = (y 0).val; omega
  | ⟨1, _⟩ => show win1_5.index t (1 : Fin 2) * 2 + 1 * (y 1).val = (y 1).val; omega

/-- The classifier's bias row is handed over whole at every point. -/
theorem whole1_6 (c : Dev nD) (t : Fin cfg1.N) : iblk1 V c 6 t = V c main_v41 := by
  have e := idx_facts1 t
  funext y
  show V c main_v41 (((cfg1.win 6).blk t).view.emb y) = V c main_v41 y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 2 + 1 * (y 1).val = (y 1).val; omega

/-- The second launch's result as one function of the arrays it finds. -/
abbrev logits (c : Dev nD) : Mat 100000 2 :=
  head (layer (V c main_v39) (V c main_v26) (V c main_arg5) (V c main_arg7) (V c main_v40)) (V c main_arg8) (V c main_v41)

/-- What point `t` writes back is block `t` of the head of the layer of the whole arrays. -/
theorem flushed1 (c : Dev nD) (t : Fin cfg1.N) :
    (dat1 V c).flushed 7 t = ((cfg1.win 7).blk t).view.read (Elt Ideal) (logits V c) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz,
    View.ld_unit_zero (S := S64x2) hz, View.ld_unit_zero (S := S1x2) hz]
  rw [pay1_eq, whole1_2, whole1_3, whole1_4, whole1_5, whole1_6]
  have hr := rows_head (rows_layer (rows1_0 V c t) (rows1_1 V c t) (V c main_arg5) (V c main_arg7) (V c main_v40))
    (V c main_arg8) (V c main_v41)
  have ht := point_lt1 t
  have e := idx_facts1 t
  funext y
  obtain ⟨p, q, rfl⟩ : ∃ (p : Fin 5000) (q : Fin 2), y = ix2 p q := ⟨_, _, eq_ix2 y⟩
  have hp := p.isLt
  refine (hr p ⟨5000 * t.val + p.val, by omega⟩ q rfl).trans ?_
  show logits V c _ = logits V c (((cfg1.win 7).blk t).view.emb (ix2 p q))
  refine congrArg _ ?_
  funext a; apply Fin.ext
  match a with
  | ⟨0, _⟩ => show 5000 * t.val + p.val = win1_7.index t (0 : Fin 2) * 5000 + 1 * p.val; omega
  | ⟨1, _⟩ => show q.val = win1_7.index t (1 : Fin 2) * 2 + 1 * q.val; omega

/-- An index of the result is in point `t`'s block iff each coordinate is in the block's range on its axis. -/
theorem mem_blk1 (t : Fin cfg1.N) (i : S100000x2.Idx) :
    i ∈ ((cfg1.win 7).blk t).view.set ↔ ∀ a : Fin 2, win1_7.index t a * S5000x2.size a ≤ (i a).val ∧ (i a).val < win1_7.index t a * S5000x2.size a + S5000x2.size a := by
  show i ∈ ((View.whole main_v42).slice (win1_7.rect t)).set ↔ _
  rw [View.set_slice_whole, Rect.mem_set_unit]
  exact Iff.rfl

/-- Every index of the result is in the block of the point numbered by its row divided by 5000. -/
theorem cover1 (i : S100000x2.Idx) : ∃ t : Fin cfg1.N, (cfg1.win 7).flush t = true ∧ i ∈ ((cfg1.win 7).blk t).view.set := by
  have hi0 : (i 0).val < 100000 := (i 0).isLt
  have hi1 : (i 1).val < 2 := (i 1).isLt
  refine ⟨⟨(i 0).val / 5000, lt_of_lt_of_eq (by omega) N_1.symm⟩, flush1_7 _, ?_⟩
  obtain ⟨-, -, -, -, -, -, -, -, -, -, -, -, -, -, e0, e1⟩ := idx_facts1 ⟨(i 0).val / 5000, lt_of_lt_of_eq (by omega) N_1.symm⟩
  rw [mem_blk1]
  intro a
  match a with
  | ⟨0, _⟩ =>
    show win1_7.index _ (0 : Fin 2) * 5000 ≤ (i 0).val ∧ (i 0).val < win1_7.index _ (0 : Fin 2) * 5000 + 5000
    rw [e0]; show (i 0).val / 5000 * 5000 ≤ (i 0).val ∧ (i 0).val < (i 0).val / 5000 * 5000 + 5000; omega
  | ⟨1, _⟩ =>
    show win1_7.index _ (1 : Fin 2) * 2 ≤ (i 1).val ∧ (i 1).val < win1_7.index _ (1 : Fin 2) * 2 + 2
    rw [e1]; omega

/-- After the second launch the result array is the head of the layer of the arrays the launch found. -/
theorem final1 (c : Dev nD) : (dat1 V c).arrAt 7 cfg1.N = logits V c :=
  (dat1 V c).arrAt_eq_of_cover 7 (logits V c) (fun t _ => flushed1 V c t) cover1

end Cert.KernelIdeal.Blocks1

end
-- ==== Proof.LibMeanLayerHost.lean ====
/-
  The host's spelling of the stages, for any extents, on the extended reals.

  On the host a bias vector is regarded as one row and the row repeated down the rows; a per-node quantity is spread
  into a column and the column along the rows; a scalar is spread to a whole array. Read at an entry these are the
  vector's entry of the column, the quantity's entry of the row, the scalar. With the products as `prod`, the host's
  layer `(a · wl + b) + y · wr` is `layer` (the three addends regrouped), its head is `head`, the mean taken as a quotient
  by the clipped count is `meanRows`, and so is the mean taken as a product with the reciprocal of the clipped count.
-/
import proofs.«156643_j86698209837070_1_alg».proof.Proof.LibMeanLayerStages

noncomputable section

namespace Cert.GraphNet

open Idealize.ShloMosaic Idealize.ShloMosaic.ValueIdx
open Cert.MatProduct Cert.RowBias Cert.Bridge

variable {R K N C : ℕ}

/-- A vector as one row, the row repeated down the rows: entry `(r, q)` is the vector's entry `q`. -/
theorem host_bias_apply (bv : Vct N) (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (y : (⟨2, ![R, N]⟩ : Shape).Idx) :
    broadcastInDim ⟨2, ![R, N]⟩ ![0, 1] h2 (broadcastInDim ⟨2, ![1, N]⟩ ![1] h1 bv) y = bv (ix1 (colOf y)) := by
  obtain ⟨r, q, rfl⟩ : ∃ (r : Fin R) (q : Fin N), y = ix2 r q := ⟨_, _, eq_ix2 y⟩
  rw [Cert.LibHostRow.rows_apply, Cert.LibHostRow.row_apply]
  rfl

/-- A per-row quantity spread into a column and the column along the rows: entry `(r, q)` is the quantity's entry `r`. -/
theorem host_column_apply (d : Vct R) (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2)) (y : (⟨2, ![R, K]⟩ : Shape).Idx) :
    broadcastInDim ⟨2, ![R, K]⟩ ![0, 1] h2 (broadcastInDim ⟨2, ![R, 1]⟩ ![0] h1 d) y = d (ix1 (rowOf y)) := by
  obtain ⟨r, q, rfl⟩ : ∃ (r : Fin R) (q : Fin K), y = ix2 r q := ⟨_, _, eq_ix2 y⟩
  rw [Cert.LibHostColumn.spread_apply, Cert.LibHostColumn.column_apply]
  rfl

/-- The host's layer, `(a · wl + b) + y · wr` with the bias vector repeated down the rows, is `layer`. -/
theorem host_layer (a y : FVec Ideal ⟨2, ![R, K]⟩ .f32) (wl wr : FVec Ideal ⟨2, ![K, N]⟩ .f32) (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) :
    addf (addf (Host.dotGeneral (DotDims.plain R K N) none a wl)
        (broadcastInDim ⟨2, ![R, N]⟩ ![0, 1] h2 (broadcastInDim ⟨2, ![1, N]⟩ ![1] h1 bv)))
      (Host.dotGeneral (DotDims.plain R K N) none y wr) = layer a y wl wr (asRow bv) := by
  funext i
  rw [addf_apply, addf_apply, host_bias_apply,
    show Host.dotGeneral (DotDims.plain R K N) none a wl = prod a wl from dotGeneral_eq_prod none .single a wl,
    show Host.dotGeneral (DotDims.plain R K N) none y wr = prod y wr from dotGeneral_eq_prod none .single y wr]
  exact add_right_comm _ _ _

/-- The host's head, `h · wc + bc` with the bias vector repeated down the rows, is `head`. -/
theorem host_head (h : FVec Ideal ⟨2, ![R, K]⟩ .f32) (wc : FVec Ideal ⟨2, ![K, C]⟩ .f32) (bv : FVec Ideal ⟨1, ![C]⟩ .f32)
    (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2)) :
    addf (Host.dotGeneral (DotDims.plain R K C) none h wc)
        (broadcastInDim ⟨2, ![R, C]⟩ ![0, 1] h2 (broadcastInDim ⟨2, ![1, C]⟩ ![1] h1 bv)) = head h wc (asRow bv) := by
  funext i
  rw [addf_apply, host_bias_apply,
    show Host.dotGeneral (DotDims.plain R K C) none h wc = prod h wc from dotGeneral_eq_prod none .single h wc]
  rfl

/-- A floor at a scalar spread over the array, entry by entry. -/
theorem host_floor (x : FVec Ideal ⟨2, ![R, N]⟩ .f32) (w : BitVec 32)
    (h : (⟨0, ![]⟩ : Shape).BroadcastsInDim ⟨2, ![R, N]⟩ (![] : Fin 0 → Fin 2)) :
    maximumf x (broadcastInDim ⟨2, ![R, N]⟩ ![] h (constant (F := Ideal) ⟨0, ![]⟩ .f32 w))
      = fun i => max (x i) (Ideal.ofBits .f32 w) := by
  funext i
  rw [maximumf_apply, Cert.LibHostRow.scalar_apply, constant_apply]

/-- The mean as a quotient by the clipped count spread over the rows is `meanRows`. -/
theorem host_mean_quot (s : FVec Ideal ⟨2, ![R, K]⟩ .f32) (dc : FVec Ideal ⟨1, ![R]⟩ .f32)
    (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2)) :
    Host.divf s (broadcastInDim ⟨2, ![R, K]⟩ ![0, 1] h2 (broadcastInDim ⟨2, ![R, 1]⟩ ![0] h1 dc)) = meanRows s dc := by
  funext i
  rw [hostDivf_apply, host_column_apply]
  rfl

/-- The mean as a product with the reciprocal of the clipped count, the reciprocal spread over the rows, is
    `meanRows` by the clipped count: a count clipped below at one is not zero, so dividing by it is multiplying by
    its inverse, whatever the numerator. `one` and `one'` are arrays holding the number one everywhere. -/
theorem host_mean_recip (s : FVec Ideal ⟨2, ![R, K]⟩ .f32) (d one one' : FVec Ideal ⟨1, ![R]⟩ .f32)
    (hone : ∀ i, one i = Ideal.ofBits .f32 0x3F800000#32) (hone' : ∀ i, one' i = Ideal.ofBits .f32 0x3F800000#32)
    (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2)) :
    mulf s (broadcastInDim ⟨2, ![R, K]⟩ ![0, 1] h2 (broadcastInDim ⟨2, ![R, 1]⟩ ![0] h1 (Host.divf one' (maximumf d one))))
      = meanRows s (maximumf d one) := by
  funext i
  rw [mulf_apply, host_column_apply, hostDivf_apply, maximumf_apply, hone, hone', max_comm]
  show s i * _ = Ideal.div (s i) (max (d (ix1 (rowOf i))) (one (ix1 (rowOf i))))
  rw [hone, max_comm (d _)]
  exact Cert.LibRecipClip.mul_recip_clip _ _

end Cert.GraphNet

end
-- ==== Proof.KernelParts.lean ====
/-
  The parts of the kernel's edge aggregation, as the host operations spell them.

  The edge list is a 2 × 1600000 array of node numbers: row 0 the sources, row 1 the destinations. A negative source
  is taken from the end (100000 is added to it). The message sum of an array `y` of node features gathers row
  `source(e)` of `y` for every edge `e` and adds it into row `destination(e)` of an array of zeros. The count adds a one
  per edge into an array of zeros at the edge's destination; it is clipped below at one. A per-node quantity is spread
  over the 64 columns of a node's row.
-/
import proofs.«156643_j86698209837070_1_alg».proof.Proof.Gen.KernelIdeal

noncomputable section

namespace Cert.KernelIdeal.Parts

open Cert.KernelIdeal Cert.KernelIdeal.Gen Idealize.ShloMosaic Idealize.ShloMosaic.TcCoe Idealize.SL.Sem

variable {F : FTy → Type} [FloatOps F]

/-- The edges' sources: row 0 of the edge list. -/
def srcOf (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- The edges' destinations: row 1 of the edge list. -/
def dstOf (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- A negative node number counts from the end. -/
def wrap (src : (⟨S1600000, .i32⟩ : BufTy).Contents (Elt F)) : (⟨S1600000, .i32⟩ : BufTy).Contents (Elt F) :=
  select (cmpi CmpIPredicate.slt src (broadcastInDim S1600000 ![] bcast_S_S1600000 (constantI S_ 32 0#32)))
    (addi src (broadcastInDim S1600000 ![] bcast_S_S1600000 (constantI S_ 32 100000#32))) src

/-- The messages summed per node. -/
def msg (src dst : (⟨S1600000, .i32⟩ : BufTy).Contents (Elt F)) (y : (⟨S100000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 (y)
      (broadcastInDim S1600000x1 ![0] bcast_S1600000_S1600000x1_0 (wrap src)))

/-- An array of ones, one per node. -/
def ones : (⟨S100000, .f32⟩ : BufTy).Contents (Elt F) := broadcastInDim S100000 ![] bcast_S_S100000 (constant S_ .f32 0x3F800000#32)

/-- The number of edges arriving at each node, clipped below at one. -/
def count (dst : (⟨S1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    ones

/-- A per-node quantity spread over the columns of the node's row. -/
def spread (d : (⟨S100000, .f32⟩ : BufTy).Contents (Elt F)) : (⟨S100000x64, .f32⟩ : BufTy).Contents (Elt F) :=
  broadcastInDim S100000x64 ![0, 1] bcast_S100000x1_S100000x64_0_1 (broadcastInDim S100000x1 ![0] bcast_S100000_S100000x1_0 d)

/-- A length-64 vector regarded as one row. -/
def row64 (b : (⟨S64, .f32⟩ : BufTy).Contents (Elt F)) : (⟨S1x64, .f32⟩ : BufTy).Contents (Elt F) := shapeCast S1x64 b shapeCasts_S64_S1x64

/-- A length-2 vector regarded as one row. -/
def row2 (b : (⟨S2, .f32⟩ : BufTy).Contents (Elt F)) : (⟨S1x2, .f32⟩ : BufTy).Contents (Elt F) := shapeCast S1x2 b shapeCasts_S2_S1x2

end Cert.KernelIdeal.Parts

end
-- ==== Proof.HostA1.lean ====
/-
  The first stretch of host operations, read at the aggregated input features.

  From any contents of the buffers at its entry, the stretch leaves in its last buffer the message sum of the node
  features along the edge list, each node's row multiplied by the reciprocal of the node's clipped count.
-/
import proofs.«156643_j86698209837070_1_alg».proof.Proof.Gen.KernelIdeal.Launch
import Idealize.ShloMosaic.Lib.StableHlo.Run
import Idealize.ShloMosaic.PureOps.Ideal
import proofs.«156643_j86698209837070_1_alg».proof.Proof.KernelParts

set_option maxRecDepth 16384

noncomputable section

namespace Cert.KernelIdeal.HostReads

open Cert.KernelIdeal Cert.KernelIdeal.Gen Cert.KernelIdeal.Parts
open Idealize.ShloMosaic Idealize.ShloMosaic.TcCoe Idealize.ShloMosaic.StableHlo Idealize.SL.Sem

variable (U : Valuation τ sig (Elt Ideal))

set_option maxHeartbeats 1000000 in
/-- The aggregated input features the first launch is handed. -/
theorem a_v24 : StableHlo.after hostOps0 U (Proc.devRef (τ := τ) .tc main_v24)
    = mulf (msg (srcOf (U (Proc.devRef (τ := τ) .tc main_arg1))) (dstOf (U (Proc.devRef (τ := τ) .tc main_arg1))) (U (Proc.devRef (τ := τ) .tc main_arg0))) (spread (Host.divf ones (count (dstOf (U (Proc.devRef (τ := τ) .tc main_arg1)))))) := by
  after_results
  rfl

end Cert.KernelIdeal.HostReads

end
-- ==== Proof.HostA2.lean ====
/-
  The first stretch of host operations, read at the buffers the second stretch and the first launch use: the edges'
  sources and destinations, the reciprocal of the clipped count, the first bias as a row.
-/
import proofs.«156643_j86698209837070_1_alg».proof.Proof.Gen.KernelIdeal.Launch
import Idealize.ShloMosaic.Lib.StableHlo.Run
import Idealize.ShloMosaic.PureOps.Ideal
import proofs.«156643_j86698209837070_1_alg».proof.Proof.KernelParts

set_option maxRecDepth 16384

noncomputable section

namespace Cert.KernelIdeal.HostReads

open Cert.KernelIdeal Cert.KernelIdeal.Gen Cert.KernelIdeal.Parts
open Idealize.ShloMosaic Idealize.ShloMosaic.TcCoe Idealize.ShloMosaic.StableHlo Idealize.SL.Sem

variable (U : Valuation τ sig (Elt Ideal))

/-- The edges' sources. -/
theorem a_v1 : StableHlo.after hostOps0 U (Proc.devRef (τ := τ) .tc main_v1) = srcOf (U (Proc.devRef (τ := τ) .tc main_arg1)) := by
  after_results
  rfl

/-- The edges' destinations. -/
theorem a_v3 : StableHlo.after hostOps0 U (Proc.devRef (τ := τ) .tc main_v3) = dstOf (U (Proc.devRef (τ := τ) .tc main_arg1)) := by
  after_results
  rfl

set_option maxHeartbeats 1000000 in
/-- The reciprocal of the clipped count. -/
theorem a_v11 : StableHlo.after hostOps0 U (Proc.devRef (τ := τ) .tc main_v11) = Host.divf ones (count (dstOf (U (Proc.devRef (τ := τ) .tc main_arg1)))) := by
  after_results
  rfl

/-- The first bias as a row. -/
theorem a_v25 : StableHlo.after hostOps0 U (Proc.devRef (τ := τ) .tc main_v25) = row64 (U (Proc.devRef (τ := τ) .tc main_arg3)) := by
  after_results
  rfl

end Cert.KernelIdeal.HostReads

end
-- ==== Proof.HostA3.lean ====
/-
  The first stretch of host operations writes none of the argument arrays the launches and the second stretch read.
-/
import proofs.«156643_j86698209837070_1_alg».proof.Proof.Gen.KernelIdeal.Launch
import Idealize.ShloMosaic.Lib.StableHlo.Run
import Idealize.ShloMosaic.PureOps.Ideal
import proofs.«156643_j86698209837070_1_alg».proof.Proof.KernelParts

set_option maxRecDepth 16384

noncomputable section

namespace Cert.KernelIdeal.HostReads

open Cert.KernelIdeal Cert.KernelIdeal.Gen Cert.KernelIdeal.Parts
open Idealize.ShloMosaic Idealize.ShloMosaic.TcCoe Idealize.ShloMosaic.StableHlo Idealize.SL.Sem

variable (U : Valuation τ sig (Elt Ideal))

/-- The stretch does not write `main_arg0`. -/
theorem a_arg0 : StableHlo.after hostOps0 U (Proc.devRef (τ := τ) .tc main_arg0) = U (Proc.devRef (τ := τ) .tc main_arg0) := by
  after_results

/-- The stretch does not write `main_arg2`. -/
theorem a_arg2 : StableHlo.after hostOps0 U (Proc.devRef (τ := τ) .tc main_arg2) = U (Proc.devRef (τ := τ) .tc main_arg2) := by
  after_results

/-- The stretch does not write `main_arg4`. -/
theorem a_arg4 : StableHlo.after hostOps0 U (Proc.devRef (τ := τ) .tc main_arg4) = U (Proc.devRef (τ := τ) .tc main_arg4) := by
  after_results

/-- The stretch does not write `main_arg5`. -/
theorem a_arg5 : StableHlo.after hostOps0 U (Proc.devRef (τ := τ) .tc main_arg5) = U (Proc.devRef (τ := τ) .tc main_arg5) := by
  after_results

/-- The stretch does not write `main_arg6`. -/
theorem a_arg6 : StableHlo.after hostOps0 U (Proc.devRef (τ := τ) .tc main_arg6) = U (Proc.devRef (τ := τ) .tc main_arg6) := by
  after_results

/-- The stretch does not write `main_arg7`. -/
theorem a_arg7 : StableHlo.after hostOps0 U (Proc.devRef (τ := τ) .tc main_arg7) = U (Proc.devRef (τ := τ) .tc main_arg7) := by
  after_results

/-- The stretch does not write `main_arg8`. -/
theorem a_arg8 : StableHlo.after hostOps0 U (Proc.devRef (τ := τ) .tc main_arg8) = U (Proc.devRef (τ := τ) .tc main_arg8) := by
  after_results

/-- The stretch does not write `main_arg9`. -/
theorem a_arg9 : StableHlo.after hostOps0 U (Proc.devRef (τ := τ) .tc main_arg9) = U (Proc.devRef (τ := τ) .tc main_arg9) := by
  after_results

end Cert.KernelIdeal.HostReads

end
-- ==== Proof.HostB1.lean ====
/-
  The second stretch of host operations, read at the aggregated hidden features.

  From any contents of the buffers at its entry, the stretch leaves in its last product the message sum of the hidden
  features along the edges, each node's row multiplied by the entry's reciprocal clipped count.
-/
import proofs.«156643_j86698209837070_1_alg».proof.Proof.Gen.KernelIdeal.Launch
import Idealize.ShloMosaic.Lib.StableHlo.Run
import Idealize.ShloMosaic.PureOps.Ideal
import proofs.«156643_j86698209837070_1_alg».proof.Proof.KernelParts

set_option maxRecDepth 16384

noncomputable section

namespace Cert.KernelIdeal.HostReads

open Cert.KernelIdeal Cert.KernelIdeal.Gen Cert.KernelIdeal.Parts
open Idealize.ShloMosaic Idealize.ShloMosaic.TcCoe Idealize.ShloMosaic.StableHlo Idealize.SL.Sem

variable (U : Valuation τ sig (Elt Ideal))

set_option maxHeartbeats 1000000 in
/-- The aggregated hidden features the second launch is handed. -/
theorem b_v39 : StableHlo.after hostOps1 U (Proc.devRef (τ := τ) .tc main_v39)
    = mulf (msg (U (Proc.devRef (τ := τ) .tc main_v1)) (U (Proc.devRef (τ := τ) .tc main_v3)) (U (Proc.devRef (τ := τ) .tc main_v26))) (spread (U (Proc.devRef (τ := τ) .tc main_v11))) := by
  after_results
  rfl

end Cert.KernelIdeal.HostReads

end
-- ==== Proof.HostB2.lean ====
/-
  The second stretch of host operations, read at the second launch's other operands: the two biases as rows, and the
  buffers it does not write.
-/
import proofs.«156643_j86698209837070_1_alg».proof.Proof.Gen.KernelIdeal.Launch
import Idealize.ShloMosaic.Lib.StableHlo.Run
import Idealize.ShloMosaic.PureOps.Ideal
import proofs.«156643_j86698209837070_1_alg».proof.Proof.KernelParts

set_option maxRecDepth 16384

noncomputable section

namespace Cert.KernelIdeal.HostReads

open Cert.KernelIdeal Cert.KernelIdeal.Gen Cert.KernelIdeal.Parts
open Idealize.ShloMosaic Idealize.ShloMosaic.TcCoe Idealize.ShloMosaic.StableHlo Idealize.SL.Sem

variable (U : Valuation τ sig (Elt Ideal))

/-- The second bias as a row. -/
theorem b_v40 : StableHlo.after hostOps1 U (Proc.devRef (τ := τ) .tc main_v40) = row64 (U (Proc.devRef (τ := τ) .tc main_arg6)) := by
  after_results
  rfl

/-- The classifier's bias as a row. -/
theorem b_v41 : StableHlo.after hostOps1 U (Proc.devRef (τ := τ) .tc main_v41) = row2 (U (Proc.devRef (τ := τ) .tc main_arg9)) := by
  after_results
  rfl

/-- The stretch does not write `main_v26`. -/
theorem b_v26 : StableHlo.after hostOps1 U (Proc.devRef (τ := τ) .tc main_v26) = U (Proc.devRef (τ := τ) .tc main_v26) := by
  after_results

/-- The stretch does not write `main_arg5`. -/
theorem b_arg5 : StableHlo.after hostOps1 U (Proc.devRef (τ := τ) .tc main_arg5) = U (Proc.devRef (τ := τ) .tc main_arg5) := by
  after_results

/-- The stretch does not write `main_arg7`. -/
theorem b_arg7 : StableHlo.after hostOps1 U (Proc.devRef (τ := τ) .tc main_arg7) = U (Proc.devRef (τ := τ) .tc main_arg7) := by
  after_results

/-- The stretch does not write `main_arg8`. -/
theorem b_arg8 : StableHlo.after hostOps1 U (Proc.devRef (τ := τ) .tc main_arg8) = U (Proc.devRef (τ := τ) .tc main_arg8) := by
  after_results

end Cert.KernelIdeal.HostReads

end
-- ==== Proof.KernelValue.lean ====
/-
  The idealized kernel's result as the network's one function.

  The result array is what the second launch's write-backs leave: the head of the layer of the arrays that launch
  finds. Those are read back through @main: the second stretch of host operations makes the aggregated hidden features
  from the hidden features, the edges and the reciprocal clipped count the first stretch left, and regards two bias
  vectors as rows; the hidden features are what the first launch's write-backs leave, the floored layer of the arrays it
  finds; the first stretch makes the aggregated input features from the inputs and the edge list. A row multiplied by
  the reciprocal of its clipped count is the row divided by the clipped count, so both aggregations are means, and the
  whole is `net` over the kernel's message sum and clipped count.
-/
import proofs.«156643_j86698209837070_1_alg».proof.Proof.Blocks0
import proofs.«156643_j86698209837070_1_alg».proof.Proof.Blocks1
import proofs.«156643_j86698209837070_1_alg».proof.Proof.LibMeanLayerHost
import proofs.«156643_j86698209837070_1_alg».proof.Proof.HostA1
import proofs.«156643_j86698209837070_1_alg».proof.Proof.HostA2
import proofs.«156643_j86698209837070_1_alg».proof.Proof.HostA3
import proofs.«156643_j86698209837070_1_alg».proof.Proof.HostB1
import proofs.«156643_j86698209837070_1_alg».proof.Proof.HostB2

set_option maxRecDepth 16384

noncomputable section

namespace Cert.KernelIdeal.KValue

open Cert.KernelIdeal Cert.KernelIdeal.Gen Cert.KernelIdeal.Parts Cert.KernelIdeal.HostReads
open Idealize.ShloMosaic Idealize.ShloMosaic.TcCoe Idealize.ShloMosaic.ValueIdx Idealize.ShloMosaic.StableHlo Idealize.SL.Sem
open Cert.GraphNet Cert.MatProduct Cert.RowBias

variable (m : (ℓ : Loc nD τ sig) → Buf (Elt Ideal) ℓ) (ρ : Dev nD → PrngReg) (c : Dev nD)

/-- The zero the first layer is floored at. -/
abbrev zeroWord : EReal := Ideal.ofBits .f32 0x00000000#32

/-! ## Small readings -/

/-- The array of ones holds the number one everywhere. -/
theorem ones_apply (i : S100000.Idx) : ones (F := Ideal) i = Ideal.ofBits .f32 0x3F800000#32 := by
  unfold ones
  rw [Cert.LibHostRow.scalar_apply, constant_apply]

/-- A vector regarded as one row by a change of shape is `asRow` of it. -/
theorem row_eq {N : ℕ} (b : Vct N) (h : (⟨1, ![N]⟩ : Shape).ShapeCasts ⟨2, ![1, N]⟩) : shapeCast ⟨2, ![1, N]⟩ b h = asRow b := by
  funext y
  obtain ⟨u, q, rfl⟩ : ∃ (u : Fin 1) (q : Fin N), y = ix2 u q := ⟨_, _, eq_ix2 y⟩
  obtain rfl : u = 0 := Subsingleton.elim _ _
  exact vecRow_apply b h q

/-- A message sum multiplied row by row by the reciprocal of the clipped count is the mean. -/
theorem mean_eq (src dst : (⟨S1600000, .i32⟩ : BufTy).Contents (Elt Ideal)) (y : (⟨S100000x64, .f32⟩ : BufTy).Contents (Elt Ideal)) :
    mulf (msg src dst y) (spread (Host.divf ones (count dst))) = meanRows (msg src dst y) (count dst) :=
  host_mean_recip _ _ _ _ ones_apply ones_apply _ _

/-! ## The first launch -/

/-- The hidden features: the floored layer of the mean of the inputs' messages and the inputs. -/
abbrev hiddenK : Mat 100000 64 :=
  layerFloor (meanRows (msg (srcOf (m ((c : Thread nD τ).loc main_arg1))) (dstOf (m ((c : Thread nD τ).loc main_arg1))) (m ((c : Thread nD τ).loc main_arg0))) (count (dstOf (m ((c : Thread nD τ).loc main_arg1))))) (m ((c : Thread nD τ).loc main_arg0)) (m ((c : Thread nD τ).loc main_arg2)) (m ((c : Thread nD τ).loc main_arg4)) (asRow (m ((c : Thread nD τ).loc main_arg3))) zeroWord

/-- What the first launch leaves in its output array. -/
theorem w2_v26 : W2 m ρ c (Proc.devRef (τ := τ) .tc main_v26) = (hiddenK m c) := by
  refine (W2_arr m ρ c 5).trans ((Cert.KernelIdeal.Blocks.final0 (V1 m ρ) c).trans ?_)
  show layerFloor (StableHlo.after hostOps0 (W0 m ρ c) (Proc.devRef (τ := τ) .tc main_v24)) (StableHlo.after hostOps0 (W0 m ρ c) (Proc.devRef (τ := τ) .tc main_arg0))
      (StableHlo.after hostOps0 (W0 m ρ c) (Proc.devRef (τ := τ) .tc main_arg2)) (StableHlo.after hostOps0 (W0 m ρ c) (Proc.devRef (τ := τ) .tc main_arg4))
      (StableHlo.after hostOps0 (W0 m ρ c) (Proc.devRef (τ := τ) .tc main_v25)) zeroWord = _
  rw [a_v24, a_arg0, a_arg2, a_arg4, a_v25]
  show layerFloor (mulf (msg (srcOf (m ((c : Thread nD τ).loc main_arg1))) (dstOf (m ((c : Thread nD τ).loc main_arg1))) (m ((c : Thread nD τ).loc main_arg0))) (spread (Host.divf ones (count (dstOf (m ((c : Thread nD τ).loc main_arg1))))))) (m ((c : Thread nD τ).loc main_arg0)) (m ((c : Thread nD τ).loc main_arg2)) (m ((c : Thread nD τ).loc main_arg4))
      (row64 (m ((c : Thread nD τ).loc main_arg3))) zeroWord = _
  rw [mean_eq]
  unfold row64
  rw [row_eq]

/-! ## What the second stretch of host operations finds -/

theorem w2_v1 : W2 m ρ c (Proc.devRef (τ := τ) .tc main_v1) = (srcOf (m ((c : Thread nD τ).loc main_arg1))) :=
  (W2_of_ne m ρ c main_v1 (by decide)).trans (a_v1 (W0 m ρ c))

theorem w2_v3 : W2 m ρ c (Proc.devRef (τ := τ) .tc main_v3) = (dstOf (m ((c : Thread nD τ).loc main_arg1))) :=
  (W2_of_ne m ρ c main_v3 (by decide)).trans (a_v3 (W0 m ρ c))

theorem w2_v11 : W2 m ρ c (Proc.devRef (τ := τ) .tc main_v11) = Host.divf ones (count (dstOf (m ((c : Thread nD τ).loc main_arg1)))) :=
  (W2_of_ne m ρ c main_v11 (by decide)).trans (a_v11 (W0 m ρ c))

theorem w2_arg5 : W2 m ρ c (Proc.devRef (τ := τ) .tc main_arg5) = (m ((c : Thread nD τ).loc main_arg5)) :=
  (W2_of_ne m ρ c main_arg5 (by decide)).trans (a_arg5 (W0 m ρ c))

theorem w2_arg6 : W2 m ρ c (Proc.devRef (τ := τ) .tc main_arg6) = (m ((c : Thread nD τ).loc main_arg6)) :=
  (W2_of_ne m ρ c main_arg6 (by decide)).trans (a_arg6 (W0 m ρ c))

theorem w2_arg7 : W2 m ρ c (Proc.devRef (τ := τ) .tc main_arg7) = (m ((c : Thread nD τ).loc main_arg7)) :=
  (W2_of_ne m ρ c main_arg7 (by decide)).trans (a_arg7 (W0 m ρ c))

theorem w2_arg8 : W2 m ρ c (Proc.devRef (τ := τ) .tc main_arg8) = (m ((c : Thread nD τ).loc main_arg8)) :=
  (W2_of_ne m ρ c main_arg8 (by decide)).trans (a_arg8 (W0 m ρ c))

theorem w2_arg9 : W2 m ρ c (Proc.devRef (τ := τ) .tc main_arg9) = (m ((c : Thread nD τ).loc main_arg9)) :=
  (W2_of_ne m ρ c main_arg9 (by decide)).trans (a_arg9 (W0 m ρ c))

/-! ## The second launch -/

/-- The idealized kernel's result: the network over the kernel's message sum and clipped count. -/
theorem result_eq : (dat1 (V3 m ρ) c).arrAt 7 cfg1.N
    = net (msg (srcOf (m ((c : Thread nD τ).loc main_arg1))) (dstOf (m ((c : Thread nD τ).loc main_arg1)))) (count (dstOf (m ((c : Thread nD τ).loc main_arg1)))) zeroWord (m ((c : Thread nD τ).loc main_arg0)) (m ((c : Thread nD τ).loc main_arg2)) (m ((c : Thread nD τ).loc main_arg4)) (m ((c : Thread nD τ).loc main_arg5)) (m ((c : Thread nD τ).loc main_arg7)) (m ((c : Thread nD τ).loc main_arg3)) (m ((c : Thread nD τ).loc main_arg6)) (m ((c : Thread nD τ).loc main_arg8)) (m ((c : Thread nD τ).loc main_arg9)) := by
  refine (Cert.KernelIdeal.Blocks1.final1 (V3 m ρ) c).trans ?_
  show head (layer (StableHlo.after hostOps1 (W2 m ρ c) (Proc.devRef (τ := τ) .tc main_v39)) (StableHlo.after hostOps1 (W2 m ρ c) (Proc.devRef (τ := τ) .tc main_v26))
      (StableHlo.after hostOps1 (W2 m ρ c) (Proc.devRef (τ := τ) .tc main_arg5)) (StableHlo.after hostOps1 (W2 m ρ c) (Proc.devRef (τ := τ) .tc main_arg7))
      (StableHlo.after hostOps1 (W2 m ρ c) (Proc.devRef (τ := τ) .tc main_v40))) (StableHlo.after hostOps1 (W2 m ρ c) (Proc.devRef (τ := τ) .tc main_arg8))
      (StableHlo.after hostOps1 (W2 m ρ c) (Proc.devRef (τ := τ) .tc main_v41)) = _
  rw [b_v39, b_v26, b_arg5, b_arg7, b_v40, b_arg8, b_v41,
    w2_v1, w2_v3, w2_v11, w2_v26, w2_arg5, w2_arg6, w2_arg7, w2_arg8, w2_arg9, mean_eq]
  unfold row64 row2
  rw [row_eq, row_eq]
  rfl

end Cert.KernelIdeal.KValue

end
-- ==== Proof.RefValue.lean ====
/-
  The reference's result as the network's one function.

  The reference computes, twice over, the sum of the messages arriving at each node (a gather along the edges' sources and
  a scatter-add at their destinations) and the count of edges arriving at each node clipped below at one, divides the
  one by the other, and applies a layer; the first layer is floored at zero. Stage by stage this is `net` over the
  reference's own message sum `msg` and clipped count `count`: each product is `prod`, each bias vector is one row
  repeated down the rows, the quotient by the spread count is `meanRows`, the floor is a maximum with a spread zero. The
  second layer recomputes the edges' sources, destinations and counts from the same edge list by the same operations.
-/
import proofs.«156643_j86698209837070_1_alg».proof.Proof.Gen.ReferenceIdeal.Read
import proofs.«156643_j86698209837070_1_alg».proof.Proof.LibMeanLayerHost

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.GraphNet

/-- The zero the first layer is floored at. -/
abbrev zeroWord : EReal := Ideal.ofBits .f32 0x00000000#32

section Parts
variable {F : FTy → Type} [FloatOps F]

/-- The messages summed per node: the rows of `y` gathered at the edges' sources, added up at the edges' destinations. -/
def msg (x1 : (⟨S2x1600000, .i32⟩ : BufTy).Contents (Elt F)) (y : (⟨S100000x64, .f32⟩ : BufTy).Contents (Elt F)) :
    (⟨S100000x64, .f32⟩ : BufTy).Contents (Elt F) :=
  Host.scatterAdd scatter_S100000x64_S1600000x1_S1600000x64_1_0_0_1 (val_main_v11 (F := F)) (val_main_v12 (F := F) x1)
    (Host.gather gather_S100000x64_S1600000x1_S1600000x64_1_0_n_n_0_1_164 (y) (val_main_v9 (F := F) x1))

/-- The number of edges arriving at each node, clipped below at one. -/
def count (x1 : (⟨S2x1600000, .i32⟩ : BufTy).Contents (Elt F)) : (⟨S100000, .f32⟩ : BufTy).Contents (Elt F) :=
  val_main_v19 (F := F) x1

end Parts

/-- The first mean: the inputs' messages over the clipped count. -/
theorem mean1 (x0 : (⟨S100000x64, .f32⟩ : BufTy).Contents (Elt Ideal)) (x1 : (⟨S2x1600000, .i32⟩ : BufTy).Contents (Elt Ideal)) : val_main_v22 (F := Ideal) x0 x1 = meanRows (msg (F := Ideal) x1 x0) (count (F := Ideal) x1) :=
  host_mean_quot _ _ _ _

/-- The first layer before its floor. -/
theorem layer1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v28 (F := Ideal) x0 x1 x2 x3 x4 = layer (val_main_v22 (F := Ideal) x0 x1) x0 x2 x4 (asRow x3) :=
  host_layer _ _ _ _ _ _ _

/-- The hidden features: the first layer floored at zero. -/
theorem hidden_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v29 (F := Ideal) x0 x1 x2 x3 x4 = layerFloor (meanRows (msg (F := Ideal) x1 x0) (count (F := Ideal) x1)) x0 x2 x4 (asRow x3) zeroWord := by
  refine (host_floor _ _ _).trans ?_
  rw [layer1, mean1]
  rfl

/-- The second mean: the hidden features' messages over the clipped count, both recomputed from the edge list. -/
theorem mean2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v52 (F := Ideal) x0 x1 x2 x3 x4 = meanRows (msg (F := Ideal) x1 (val_main_v29 (F := Ideal) x0 x1 x2 x3 x4)) (count (F := Ideal) x1) :=
  host_mean_quot _ _ _ _

/-- The second layer. -/
theorem layer2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v58 (F := Ideal) x0 x1 x2 x3 x4 x5 x6 x7
      = layer (val_main_v52 (F := Ideal) x0 x1 x2 x3 x4) (val_main_v29 (F := Ideal) x0 x1 x2 x3 x4) x5 x7 (asRow x6) :=
  host_layer _ _ _ _ _ _ _

/-- The head. -/
theorem head_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x2, .f32⟩ : BufTy).Contents (Elt Ideal)) (x9 : (⟨S2, .f32⟩ : BufTy).Contents (Elt Ideal)) :
    val_main_v62 (F := Ideal) x0 x1 x2 x3 x4 x5 x6 x7 x8 x9
      = head (val_main_v58 (F := Ideal) x0 x1 x2 x3 x4 x5 x6 x7) x8 (asRow x9) :=
  host_head _ _ _ _ _

/-- The reference's result is the network over its message sum and clipped count. -/
theorem result_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x2, .f32⟩ : BufTy).Contents (Elt Ideal)) (x9 : (⟨S2, .f32⟩ : BufTy).Contents (Elt Ideal)) :
    val_main_v62 (F := Ideal) x0 x1 x2 x3 x4 x5 x6 x7 x8 x9
      = net (msg (F := Ideal) x1) (count (F := Ideal) x1) zeroWord x0 x2 x4 x5 x7 x3 x6 x8 x9 := by
  rw [head_eq, layer2, mean2, hidden_eq]
  rfl

end Cert.ReferenceIdeal.RefValue

end
-- ==== Proof.lean ====
/-
  A two-layer mean-aggregating graph network: the kernel against its reference, on the extended reals.

  Both programs sum, for every node, the feature rows of the nodes that send it an edge (a gather along the edges'
  sources, a scatter-add at their destinations), count the edges arriving at it, clip the count below at one, and take
  the mean; a layer is then `mean · Wl + x · Wr + b`, the first layer floored at zero, and a linear head follows. The
  kernel multiplies each node's summed messages by the reciprocal of its clipped count where the reference divides by
  the clipped count, adds a layer's three terms in the order `(p + q) + b` where the reference adds `(p + b) + q`, and
  computes the dense steps in two launches that walk the rows in blocks of 5000 with operands narrowed to bf16 on the
  matrix unit (a change of format is the identity on extended reals). A count clipped at one is not zero, so the product
  with its reciprocal is the quotient by it, whatever the numerator; addition of extended reals is commutative and
  associative; every dense step acts on each row by itself. So both programs end at one function `net` of the argument
  arrays, over the same message sum and clipped count. No finiteness of the inputs is used.

  The three frames are the generated frame runs (the reference's frame is its generated run with the result dropped);
  the idealization rewrote nothing, so there is nothing to preserve.
-/
import proofs.«156643_j86698209837070_1_alg».proof.Defs
import proofs.«156643_j86698209837070_1_alg».proof.Proof.Gen.Kernel
import proofs.«156643_j86698209837070_1_alg».proof.Proof.Gen.Kernel.Frame
import proofs.«156643_j86698209837070_1_alg».proof.Proof.Gen.KernelIdeal
import proofs.«156643_j86698209837070_1_alg».proof.Proof.Gen.KernelIdeal.Frame
import proofs.«156643_j86698209837070_1_alg».proof.Proof.Gen.ReferenceIdeal
import proofs.«156643_j86698209837070_1_alg».proof.Proof.Gen.ReferenceIdeal.Run
import proofs.«156643_j86698209837070_1_alg».proof.Proof.Gen.ReferenceIdeal.Read
import proofs.«156643_j86698209837070_1_alg».proof.Proof.Gen.Pre_finite_inputs
import proofs.«156643_j86698209837070_1_alg».proof.Proof.KernelRun
import proofs.«156643_j86698209837070_1_alg».proof.Proof.KernelValue
import proofs.«156643_j86698209837070_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.GraphNet

/-- The two programs' message sums along one edge list are one function: the same gather and scatter-add of the same
    sources and destinations cut out of the list. -/
theorem msg_eq (ei : (⟨Cert.KernelIdeal.S2x1600000, .i32⟩ : BufTy).Contents (Elt Ideal)) :
    Cert.ReferenceIdeal.RefValue.msg (F := Ideal) ei
      = Cert.KernelIdeal.Parts.msg (F := Ideal) (Cert.KernelIdeal.Parts.srcOf ei) (Cert.KernelIdeal.Parts.dstOf ei) := rfl

/-- So are their clipped counts. -/
theorem count_eq (ei : (⟨Cert.KernelIdeal.S2x1600000, .i32⟩ : BufTy).Contents (Elt Ideal)) :
    Cert.ReferenceIdeal.RefValue.count (F := Ideal) ei
      = Cert.KernelIdeal.Parts.count (F := Ideal) (Cert.KernelIdeal.Parts.dstOf ei) := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at `net` of the arguments, over one message sum and one
    clipped count. -/
theorem algebraic : Cert.algebraic_KernelIdeal_ReferenceIdeal := by
  intro m ρ m' ρ' _ hagree
  refine ⟨fun c => net (Cert.KernelIdeal.Parts.msg (Cert.KernelIdeal.Parts.srcOf (m ((c.tc : Thread Cert.KernelIdeal.nD Cert.KernelIdeal.τ).loc Cert.KernelIdeal.main_arg1))) (Cert.KernelIdeal.Parts.dstOf (m ((c.tc : Thread Cert.KernelIdeal.nD Cert.KernelIdeal.τ).loc Cert.KernelIdeal.main_arg1))))
      (Cert.KernelIdeal.Parts.count (Cert.KernelIdeal.Parts.dstOf (m ((c.tc : Thread Cert.KernelIdeal.nD Cert.KernelIdeal.τ).loc Cert.KernelIdeal.main_arg1)))) Cert.KernelIdeal.KValue.zeroWord
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KValue.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v62_eq, Cert.ReferenceIdeal.RefValue.result_eq, e0, e1, e2, e3, e4, e5, e6, e7, e8, e9,
      msg_eq, count_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
